-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x64 : Shape := ⟨3, ![32, 8192, 64]⟩
abbrev S_ : Shape := ⟨0, ![]⟩

class Facts : Prop where
  bcast_S_S32x8192x64 : S_.BroadcastsInDim S32x8192x64 (![] : Fin 0 → Fin S32x8192x64.rank)
  reducesTo_S32x8192x64_S_d0_1_2 : S32x8192x64.ReducesTo [0, 1, 2] S_
  h_S_ : 0 < S_.numel

variable [Facts]

def fn {F : FTy → Type} [FloatOps F] (main_arg0 : FVec F S32x8192x64 .f32) (main_arg1 : FVec F S32x8192x64 .f32) : IVec S_ 1 :=
  let main_v0 : FVec F S32x8192x64 .f32 := Host.absf main_arg0
  let main_cst : FVec F S_ .f32 := constant S_ .f32 0x7F800000#32
  let main_v1 : FVec F S32x8192x64 .f32 := broadcastInDim S32x8192x64 ![] bcast_S_S32x8192x64 main_cst
  let main_v2 : IVec S32x8192x64 1 := cmpf .olt main_v0 main_v1
  let main_c : IVec S_ 1 := constantI S_ 1 1#1
  let main_v3 : IVec S_ 1 := (fun x v => Host.reduce IntOp.andi x v reducesTo_S32x8192x64_S_d0_1_2 h_S_) main_v2 main_c
  let main_v4 : FVec F S32x8192x64 .f32 := Host.absf main_arg1
  let main_cst_0 : FVec F S_ .f32 := constant S_ .f32 0x7F800000#32
  let main_v5 : FVec F S32x8192x64 .f32 := broadcastInDim S32x8192x64 ![] bcast_S_S32x8192x64 main_cst_0
  let main_v6 : IVec S32x8192x64 1 := cmpf .olt main_v4 main_v5
  let main_c_1 : IVec S_ 1 := constantI S_ 1 1#1
  let main_v7 : IVec S_ 1 := (fun x v => Host.reduce IntOp.andi x v reducesTo_S32x8192x64_S_d0_1_2 h_S_) main_v6 main_c_1
  let main_v8 : IVec S_ 1 := andi main_v3 main_v7
  main_v8
-- ==== Kernel.lean ====
abbrev S32x8192x64 : Shape := ⟨3, ![32, 8192, 64]⟩
abbrev S32x64x128 : Shape := ⟨3, ![32, 64, 128]⟩
abbrev S1x8192x64 : Shape := ⟨3, ![1, 8192, 64]⟩
abbrev S1x64x128 : Shape := ⟨3, ![1, 64, 128]⟩
abbrev S8192x64 : Shape := ⟨2, ![8192, 64]⟩
abbrev S8192x128 : Shape := ⟨2, ![8192, 128]⟩
abbrev S128x128 : Shape := ⟨2, ![128, 128]⟩
abbrev S64x64 : Shape := ⟨2, ![64, 64]⟩
abbrev S64x128 : Shape := ⟨2, ![64, 128]⟩
abbrev S32x64x64 : Shape := ⟨3, ![32, 64, 64]⟩

abbrev nBuf : Space → Nat
  | .hbm => 5
  | .vmem => 6
  | .smem => 0
  | _ => 0

abbrev bufTy : (tb : Table) → Fin (tcTables nBuf tb) → BufTy
  | .hbm, ⟨0, _⟩ => ⟨S32x8192x64, .f32⟩
  | .hbm, ⟨1, _⟩ => ⟨S32x8192x64, .f32⟩
  | .hbm, ⟨2, _⟩ => ⟨S32x64x128, .f32⟩
  | .hbm, ⟨3, _⟩ => ⟨S32x64x64, .f32⟩
  | .hbm, ⟨4, _⟩ => ⟨S32x64x64, .f32⟩
  | .local _ .vmem, ⟨0, _⟩ => ⟨S1x8192x64, .f32⟩
  | .local _ .vmem, ⟨1, _⟩ => ⟨S1x8192x64, .f32⟩
  | .local _ .vmem, ⟨2, _⟩ => ⟨S1x8192x64, .f32⟩
  | .local _ .vmem, ⟨3, _⟩ => ⟨S1x8192x64, .f32⟩
  | .local _ .vmem, ⟨4, _⟩ => ⟨S1x64x128, .f32⟩
  | .local _ .vmem, ⟨5, _⟩ => ⟨S1x64x128, .f32⟩
  | _, _ => ⟨S32x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  bitsLt_bf16_f32 : FTy.bits .bf16 < FTy.bits .f32
  concatenates_S8192x64_S8192x64_S8192x128_d1 : Shape.Concatenates [S8192x64, S8192x64] S8192x128 1
  slices_S128x128_o0_0_S64x64 : S128x128.Slices ![0, 0] S64x64
  slices_S128x128_o64_64_S64x64 : S128x128.Slices ![64, 64] S64x64
  slices_S128x128_o0_64_S64x64 : S128x128.Slices ![0, 64] S64x64
  transposes_S64x64_p1_0_S64x64 : S64x64.Transposes [1, 0] S64x64
  concatenates_S64x64_S64x64_S64x128_d1 : Shape.Concatenates [S64x64, S64x64] S64x128 1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  slices_S32x64x128_S32x64x64_0_0_0 : S32x64x128.Slices ![0, 0, 0] S32x64x64
  slices_S32x64x128_S32x64x64_0_0_64 : S32x64x128.Slices ![0, 0, 64] S32x64x64
  dot_S8192x128_S8192x128_S128x128_0_0_1_1_n_n_wf : DotDims.WF S8192x128 S8192x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S32x8192x64.size a
  hwx0_0 : ∀ i : grid0.Coords, EltTy.bits .f32 = 32 ∨ (Rect.block (s := S32x8192x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x64.size a ≤ S32x8192x64.size a
  hwx0_1 : ∀ i : grid0.Coords, EltTy.bits .f32 = 32 ∨ (Rect.block (s := S32x8192x64) S1x8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S32x64x128.size a
  hwx0_2 : ∀ i : grid0.Coords, EltTy.bits .f32 = 32 ∨ (Rect.block (s := S32x64x128) S1x64x128.size (cc0_transform_2 i) (hinb0_2 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf

abbrev win0_0 : Pipeline.Window sig grid0 :=
  Pipeline.Window.ofSpec (Memref.whole main_arg0) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8192x64 : Shape := ⟨3, ![32, 8192, 64]⟩
abbrev S32x64x64 : Shape := ⟨3, ![32, 64, 64]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32x8192x64, .f32⟩
  | .hbm, ⟨1, _⟩ => ⟨S32x8192x64, .f32⟩
  | .hbm, ⟨2, _⟩ => ⟨S32x64x64, .f32⟩
  | .hbm, ⟨3, _⟩ => ⟨S32x64x64, .f32⟩
  | .hbm, ⟨4, _⟩ => ⟨S32x64x64, .f32⟩
  | .hbm, ⟨5, _⟩ => ⟨S32x64x64, .f32⟩
  | .hbm, ⟨6, _⟩ => ⟨S_, .f32⟩
  | .hbm, ⟨7, _⟩ => ⟨S32x64x64, .f32⟩
  | .hbm, ⟨8, _⟩ => ⟨S32x64x64, .f32⟩
  | .hbm, ⟨9, _⟩ => ⟨S32x64x64, .f32⟩
  | .hbm, ⟨10, _⟩ => ⟨S32x64x64, .f32⟩
  | .hbm, ⟨11, _⟩ => ⟨S_, .f32⟩
  | .hbm, ⟨12, _⟩ => ⟨S32x64x64, .f32⟩
  | .hbm, ⟨13, _⟩ => ⟨S32x64x64, .f32⟩
  | _, _ => ⟨S32x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S_S32x64x64 : S_.BroadcastsInDim S32x64x64 (![] : Fin 0 → Fin S32x64x64.rank)
  transposes_S32x64x64_S32x64x64_0_2_1 : S32x64x64.Transposes [0, 2, 1] S32x64x64
  dot_S32x8192x64_S32x8192x64_S32x64x64_1_1_2_2_0_0_wf : DotDims.WF S32x8192x64 S32x8192x64 S32x64x64 [1] [1] [2] [2] [0] [0]

variable [Facts₀]

def dot_S32x8192x64_S32x8192x64_S32x64x64_1_1_2_2_0_0 : DotDims S32x8192x64 S32x8192x64 S32x64x64 where
  lhsContracting := [1]
  rhsContracting := [1]
  lhsNonContracting := [2]
  rhsNonContracting := [2]
  lhsBatch := [0]
  rhsBatch := [0]
  wf := dot_S32x8192x64_S32x8192x64_S32x64x64_1_1_2_2_0_0_wf

class Facts : Prop extends Facts₀ where

variable [Facts]
-- ==== Proof.Spec.lean ====
/-
  The complex mixture of a batch of sequences, stated index by index.

  For a batch of B = 32 sequences of S = 8192 complex vectors of dimension D = 64, given as a real part x and
  an imaginary part y (arrays [32, 8192, 64]), the mixture of batch b is the average over the sequence of
  the outer products v v^H.  With the Gram sums
      gram u w b p q = sum over s of u[b, s, p] * w[b, s, q]
  its real part is (gram x x + gram y y) / S and its imaginary part (gram x y - (gram x y)^T) / S, the
  division by S = 8192 = 2^13 being a multiplication by the float 2^-13.  The two parts side by side, the
  real one in columns 0..63 and the imaginary one in columns 64..127, form the packed array [32, 64, 128].
-/
import Idealize.ShloMosaic.Lib.ValueIdx

noncomputable section

open scoped BigOperators

namespace Cert.Mixture

open Idealize.ShloMosaic Idealize.ShloMosaic.ValueIdx

/-- The shape of each argument: batch, sequence, dimension. -/
abbrev SArg : Shape := ⟨3, ![32, 8192, 64]⟩
/-- The shape of each result: batch, row, column. -/
abbrev SOut : Shape := ⟨3, ![32, 64, 64]⟩
/-- The shape of the two results side by side. -/
abbrev SPacked : Shape := ⟨3, ![32, 64, 128]⟩

/-- The factor 1/S: the float 2^-13, the same word in both programs. -/
def scale : EReal := Ideal.ofBits .f32 0x39000000#32

/-- The Gram sum of two arrays over the sequence axis, within batch b, at row p and column q. -/
def gram (u w : SArg.Idx → EReal) (b : Fin 32) (p q : Fin 64) : EReal :=
  ∑ s : Fin 8192, u (ix3 b s p) * w (ix3 b s q)

/-- The real part of the mixture. -/
def outRe (x y : SArg.Idx → EReal) : SOut.Idx → EReal := fun i =>
  (gram x x (i 0) (i 1) (i 2) + gram y y (i 0) (i 1) (i 2)) * scale

/-- The imaginary part of the mixture: the cross Gram sum less its transpose. -/
def outIm (x y : SArg.Idx → EReal) : SOut.Idx → EReal := fun i =>
  (gram x y (i 0) (i 1) (i 2) - gram x y (i 0) (i 2) (i 1)) * scale

/-- The two parts side by side along the last axis. -/
def packed (x y : SArg.Idx → EReal) : SPacked.Idx → EReal := fun i =>
  if h : (i 2).val < 64 then outRe x y (ix3 (i 0) (i 1) ⟨(i 2).val, h⟩)
  else outIm x y (ix3 (i 0) (i 1) ⟨(i 2).val - 64, by have h2 : (i 2).val < 128 := (i 2).isLt; omega⟩)

/-- Columns 0..63 of the packed array are the real part. -/
theorem packed_left (x y : SArg.Idx → EReal) (i : SOut.Idx) (j : SPacked.Idx)
    (h0 : (j 0).val = (i 0).val) (h1 : (j 1).val = (i 1).val) (h2 : (j 2).val = (i 2).val) :
    packed x y j = outRe x y i := by
  have hlt : (j 2).val < 64 := by rw [h2]; exact (i 2).isLt
  unfold packed
  rw [dif_pos hlt]
  congr 1
  funext a
  match a with
  | ⟨0, _⟩ => exact Fin.ext h0
  | ⟨1, _⟩ => exact Fin.ext h1
  | ⟨2, _⟩ => exact Fin.ext h2

/-- Columns 64..127 of the packed array are the imaginary part. -/
theorem packed_right (x y : SArg.Idx → EReal) (i : SOut.Idx) (j : SPacked.Idx)
    (h0 : (j 0).val = (i 0).val) (h1 : (j 1).val = (i 1).val) (h2 : (j 2).val = 64 + (i 2).val) :
    packed x y j = outIm x y i := by
  have hge : ¬ (j 2).val < 64 := by rw [h2]; omega
  unfold packed
  rw [dif_neg hge]
  congr 1
  funext a
  match a with
  | ⟨0, _⟩ => exact Fin.ext h0
  | ⟨1, _⟩ => exact Fin.ext h1
  | ⟨2, _⟩ => exact Fin.ext (by show (j 2).val - 64 = (i 2).val; omega)

end Cert.Mixture

end
-- ==== Proof.RefIsSpec.lean ====
/-
  The reference computes the mixture.

  The reference forms the three Gram sums by batched contractions over the sequence axis — real with real,
  imaginary with imaginary, real with imaginary —, adds the first two, subtracts from the third its transpose in
  the last two axes, and multiplies each by the float 2^-13.  Read at an index (b, p, q) these are the two parts
  of the mixture as stated in the specification, sum for sum.
-/
import proofs.«176316_j34583076667832_2_alg».proof.Proof.Gen.ReferenceIdeal.Read
import proofs.«176316_j34583076667832_2_alg».proof.Proof.Spec

noncomputable section

open scoped BigOperators

namespace Cert.Mixture.Ref

open Idealize.ShloMosaic Idealize.ShloMosaic.ValueIdx Cert.ReferenceIdeal Cert.ReferenceIdeal.Read Cert.Mixture

/-- The left operand of each of the three contractions is read at (b, s, p). -/
theorem lidx0_eq (i : SOut.Idx) (k : Fin 8192) : lidx_main_v0 i k = ix3 (i 0) k (i 1) :=
  funext fun a => by match a with | ⟨0, _⟩ => rfl | ⟨1, _⟩ => rfl | ⟨2, _⟩ => rfl
theorem lidx1_eq (i : SOut.Idx) (k : Fin 8192) : lidx_main_v1 i k = ix3 (i 0) k (i 1) :=
  funext fun a => by match a with | ⟨0, _⟩ => rfl | ⟨1, _⟩ => rfl | ⟨2, _⟩ => rfl
theorem lidx2_eq (i : SOut.Idx) (k : Fin 8192) : lidx_main_v2 i k = ix3 (i 0) k (i 1) :=
  funext fun a => by match a with | ⟨0, _⟩ => rfl | ⟨1, _⟩ => rfl | ⟨2, _⟩ => rfl

/-- The right operand of each of the three contractions is read at (b, s, q). -/
theorem ridx0_eq (i : SOut.Idx) (k : Fin 8192) : ridx_main_v0 i k = ix3 (i 0) k (i 2) :=
  funext fun a => by match a with | ⟨0, _⟩ => rfl | ⟨1, _⟩ => rfl | ⟨2, _⟩ => rfl
theorem ridx1_eq (i : SOut.Idx) (k : Fin 8192) : ridx_main_v1 i k = ix3 (i 0) k (i 2) :=
  funext fun a => by match a with | ⟨0, _⟩ => rfl | ⟨1, _⟩ => rfl | ⟨2, _⟩ => rfl
theorem ridx2_eq (i : SOut.Idx) (k : Fin 8192) : ridx_main_v2 i k = ix3 (i 0) k (i 2) :=
  funext fun a => by match a with | ⟨0, _⟩ => rfl | ⟨1, _⟩ => rfl | ⟨2, _⟩ => rfl

/-- The first result of the reference is the real part of the mixture. -/
theorem re_eq (x y : SArg.Idx → EReal) : val_main_v5 (F := Ideal) x y = outRe x y := by
  funext i
  rw [val_main_v5_apply, val_main_v3_apply, val_main_v0_apply, val_main_v1_apply, val_main_v4_apply, val_main_cst_apply]
  simp only [lidx0_eq, ridx0_eq, lidx1_eq, ridx1_eq]
  rfl

/-- The second result of the reference is the imaginary part of the mixture. -/
theorem im_eq (x y : SArg.Idx → EReal) : val_main_v9 (F := Ideal) x y = outIm x y := by
  funext i
  rw [val_main_v9_apply, val_main_v7_apply, val_main_v6_apply, val_main_v2_apply, val_main_v2_apply, val_main_v8_apply, val_main_cst_0_apply]
  simp only [lidx2_eq, ridx2_eq]
  rfl

end Cert.Mixture.Ref

end
-- ==== Proof.GramRead.lean ====
/-
  The Gram matrix of a tall operand, read at an entry.

  The body multiplies the [8192, 128] operand X by itself contracting the LONG axis of both factors (axis 0 with
  axis 0), into a zero accumulator.  At the ideal values entry (P, Q) of the [128, 128] product is the plain sum
  over the rows s of X[s, P] * X[s, Q]: the Gram matrix X^T X.
-/
import proofs.«176316_j34583076667832_2_alg».proof.Proof.Gen.KernelIdeal
import Idealize.ShloMosaic.Lib.ValueIdx
import Idealize.ShloMosaic.PureOps.Ideal.Laws

noncomputable section

open scoped BigOperators

namespace Cert.Mixture.Gram

open Idealize.ShloMosaic Idealize.ShloMosaic.ValueIdx Cert.KernelIdeal Cert.KernelIdeal.Gen

/-- The left factor's row is the contraction position. -/
theorem lhs_row (j : S128x128.Idx) (q : dot_S8192x128_S8192x128_S128x128_0_0_1_1_n_n.contr.Idx) :
    (dot_S8192x128_S8192x128_S128x128_0_0_1_1_n_n.lhsIdx j q 0).val = (q ⟨0, by decide⟩).val :=
  dot_S8192x128_S8192x128_S128x128_0_0_1_1_n_n.lhsIdx_val_of_single rfl j q

/-- The left factor's column is the product's row. -/
theorem lhs_col (j : S128x128.Idx) (q : dot_S8192x128_S8192x128_S128x128_0_0_1_1_n_n.contr.Idx) :
    (dot_S8192x128_S8192x128_S128x128_0_0_1_1_n_n.lhsIdx j q 1).val = (j 0).val := by
  unfold DotDims.lhsIdx
  rw [dif_neg (show ¬(1 : Fin S8192x128.rank) ∈ dot_S8192x128_S8192x128_S128x128_0_0_1_1_n_n.lhsBatch by decide),
    dif_pos (show (1 : Fin S8192x128.rank) ∈ dot_S8192x128_S8192x128_S128x128_0_0_1_1_n_n.lhsNonContracting by decide)]
  rfl

/-- The right factor's row is the contraction position. -/
theorem rhs_row (j : S128x128.Idx) (q : dot_S8192x128_S8192x128_S128x128_0_0_1_1_n_n.contr.Idx) :
    (dot_S8192x128_S8192x128_S128x128_0_0_1_1_n_n.rhsIdx j q 0).val = (q ⟨0, by decide⟩).val :=
  dot_S8192x128_S8192x128_S128x128_0_0_1_1_n_n.rhsIdx_val_of_single rfl j q

/-- The right factor's column is the product's column. -/
theorem rhs_col (j : S128x128.Idx) (q : dot_S8192x128_S8192x128_S128x128_0_0_1_1_n_n.contr.Idx) :
    (dot_S8192x128_S8192x128_S128x128_0_0_1_1_n_n.rhsIdx j q 1).val = (j 1).val := by
  unfold DotDims.rhsIdx
  rw [dif_neg (show ¬(1 : Fin S8192x128.rank) ∈ dot_S8192x128_S8192x128_S128x128_0_0_1_1_n_n.rhsBatch by decide),
    dif_pos (show (1 : Fin S8192x128.rank) ∈ dot_S8192x128_S8192x128_S128x128_0_0_1_1_n_n.rhsNonContracting by decide)]
  rfl

/-- Entry (P, Q) of the product of X with itself over the long axis, into the zero accumulator, is the sum over
    the rows of X[s, P] * X[s, Q]. -/
theorem gram_apply (X : FVec Ideal S8192x128 .bf16) (P Q : Fin 128) :
    matmul dot_S8192x128_S8192x128_S128x128_0_0_1_1_n_n none X X (constant (F := Ideal) S128x128 .f32 0x00000000#32) (ix2 P Q)
      = ∑ s : Fin 8192, X (ix2 s P) * X (ix2 s Q) := by
  simp only [matmul]
  rw [Ideal.matmul_constant_zero_apply,
    ← Equiv.sum_comp (contrEquiv1 dot_S8192x128_S8192x128_S128x128_0_0_1_1_n_n 8192 rfl rfl).symm]
  refine Finset.sum_congr rfl fun s _ => ?_
  have hs := contrEquiv1_symm_val dot_S8192x128_S8192x128_S128x128_0_0_1_1_n_n 8192 rfl rfl s
  have el : dot_S8192x128_S8192x128_S128x128_0_0_1_1_n_n.lhsIdx (ix2 P Q)
      ((contrEquiv1 dot_S8192x128_S8192x128_S128x128_0_0_1_1_n_n 8192 rfl rfl).symm s) = ix2 s P :=
    funext fun a => Fin.ext (by
      match a with
      | ⟨0, _⟩ => exact (lhs_row _ _).trans hs
      | ⟨1, _⟩ => exact lhs_col _ _)
  have er : dot_S8192x128_S8192x128_S128x128_0_0_1_1_n_n.rhsIdx (ix2 P Q)
      ((contrEquiv1 dot_S8192x128_S8192x128_S128x128_0_0_1_1_n_n 8192 rfl rfl).symm s) = ix2 s Q :=
    funext fun a => Fin.ext (by
      match a with
      | ⟨0, _⟩ => exact (rhs_row _ _).trans hs
      | ⟨1, _⟩ => exact rhs_col _ _)
  rw [el, er]

end Cert.Mixture.Gram

end
-- ==== Proof.Operand.lean ====
/-
  The body's matrix operand, read at an entry.

  The body loads the real block and the imaginary block of its batch (each [1, 8192, 64]), drops the leading unit
  axis, narrows to bf16 (the identity at the ideal values) and sets the two side by side along the columns: the
  operand X of shape [8192, 128], whose columns 0..63 are the real block's and columns 64..127 the imaginary
  block's.
-/
import proofs.«176316_j34583076667832_2_alg».proof.Proof.Gen.KernelIdeal
import Idealize.ShloMosaic.Lib.Pipeline.Value
import Idealize.ShloMosaic.Lib.ValueIdx

noncomputable section

namespace Cert.Mixture.Operand

open Idealize.ShloMosaic Idealize.ShloMosaic.ValueIdx Cert.KernelIdeal Cert.KernelIdeal.Gen

/-- A block with its leading unit axis dropped reads (s, p) at (0, s, p). -/
theorem drop_apply (v : Vec Ideal S1x8192x64 .f32) (s : Fin 8192) (p : Fin 64) :
    shapeCast S8192x64 v shapeCasts_S1x8192x64_S8192x64 (ix2 s p) = v (ix3 (0 : Fin 1) s p) := by
  refine shapeCast_apply v _ (ix2 s p) (ix3 (0 : Fin 1) s p) ?_
  rw [Shape.rowMajor_val_three, Shape.rowMajor_val_two]
  show (0 * 8192 + s.val) * 64 + p.val = s.val * 64 + p.val
  omega

/-- The operand: the two blocks, unit axis dropped and narrowed, side by side along the columns. -/
def cat (v0 v3 : Vec Ideal S1x8192x64 .f32) : FVec Ideal S8192x128 .bf16 :=
  concatenate S8192x128 1
    [⟨S8192x64, truncf .bf16 (shapeCast S8192x64 v0 shapeCasts_S1x8192x64_S8192x64) bitsLt_bf16_f32⟩,
     ⟨S8192x64, truncf .bf16 (shapeCast S8192x64 v3 shapeCasts_S1x8192x64_S8192x64) bitsLt_bf16_f32⟩]
    concatenates_S8192x64_S8192x64_S8192x128_d1

/-- Columns 0..63 of the operand are the first block's columns. -/
theorem cat_left (v0 v3 : Vec Ideal S1x8192x64 .f32) (s : Fin 8192) (P : Fin 128) (p : Fin 64) (h : P.val = p.val) :
    cat v0 v3 (ix2 s P) = v0 (ix3 (0 : Fin 1) s p) := by
  unfold cat
  refine (concatenate_pair_apply_left (s₁ := S8192x64) (s₂ := S8192x64) (1 : Fin 2) _ _ _ (ix2 s P) rfl (ix2 s p) ?_).trans ?_
  · intro b
    match b with
    | ⟨0, _⟩ => rfl
    | ⟨1, _⟩ => exact h.symm
  · rw [truncf_apply, drop_apply]

/-- Columns 64..127 of the operand are the second block's columns. -/
theorem cat_right (v0 v3 : Vec Ideal S1x8192x64 .f32) (s : Fin 8192) (P : Fin 128) (p : Fin 64) (h : P.val = p.val + 64) :
    cat v0 v3 (ix2 s P) = v3 (ix3 (0 : Fin 1) s p) := by
  unfold cat
  refine (concatenate_pair_apply_right (s₁ := S8192x64) (s₂ := S8192x64) (1 : Fin 2) _ _ _ (ix2 s P) rfl rfl (ix2 s p) ?_ ?_).trans ?_
  · intro b hb
    match b with
    | ⟨0, _⟩ => rfl
    | ⟨1, _⟩ => exact absurd rfl hb
  · show p.val + 64 = P.val
    omega
  · rw [truncf_apply, drop_apply]

end Cert.Mixture.Operand

end
-- ==== Proof.Payload.lean ====
/-
  What the body stores, read at an entry.

  From the operand X = [real block | imaginary block] the body forms the Gram matrix G = X^T X (128 by 128) and cuts
  three 64 by 64 corners out of it: G[:64, :64] (real with real), G[64:, 64:] (imaginary with imaginary) and
  G[:64, 64:] (real with imaginary).  It stores, side by side, (first + second) * 2^-13 and
  (third - third transposed) * 2^-13, with a leading unit axis added.  Entry (0, p, Q) of the stored block is
  therefore, for Q < 64, the sum over s of re[s,p] re[s,Q] plus the sum of im[s,p] im[s,Q], scaled; and for
  Q = 64 + q the sum of re[s,p] im[s,q] less the sum of re[s,q] im[s,p], scaled.
-/
import proofs.«176316_j34583076667832_2_alg».proof.Proof.Gen.KernelIdeal.Skeleton
import proofs.«176316_j34583076667832_2_alg».proof.Proof.Spec
import proofs.«176316_j34583076667832_2_alg».proof.Proof.GramRead
import proofs.«176316_j34583076667832_2_alg».proof.Proof.Operand

noncomputable section

open scoped BigOperators

namespace Cert.Mixture.Payload

open Idealize.ShloMosaic Idealize.ShloMosaic.ValueIdx Cert.KernelIdeal Cert.KernelIdeal.Gen Cert.Mixture
open Cert.Mixture.Operand

variable (v0 v3 : Vec Ideal S1x8192x64 .f32)

/-- The Gram matrix of the operand. -/
def gramm : FVec Ideal S128x128 .f32 :=
  matmul dot_S8192x128_S8192x128_S128x128_0_0_1_1_n_n none (cat v0 v3) (cat v0 v3) (constant (F := Ideal) S128x128 .f32 0x00000000#32)

/-- An entry of the top-left corner: real with real. -/
theorem gramm_ll (P Q : Fin 128) (p q : Fin 64) (hP : P.val = p.val) (hQ : Q.val = q.val) :
    gramm v0 v3 (ix2 P Q) = ∑ s : Fin 8192, v0 (ix3 (0 : Fin 1) s p) * v0 (ix3 (0 : Fin 1) s q) :=
  (Gram.gram_apply _ P Q).trans (Finset.sum_congr rfl fun s _ => by
    rw [cat_left v0 v3 s P p hP, cat_left v0 v3 s Q q hQ])

/-- An entry of the bottom-right corner: imaginary with imaginary. -/
theorem gramm_rr (P Q : Fin 128) (p q : Fin 64) (hP : P.val = p.val + 64) (hQ : Q.val = q.val + 64) :
    gramm v0 v3 (ix2 P Q) = ∑ s : Fin 8192, v3 (ix3 (0 : Fin 1) s p) * v3 (ix3 (0 : Fin 1) s q) :=
  (Gram.gram_apply _ P Q).trans (Finset.sum_congr rfl fun s _ => by
    rw [cat_right v0 v3 s P p hP, cat_right v0 v3 s Q q hQ])

/-- An entry of the top-right corner: real with imaginary. -/
theorem gramm_lr (P Q : Fin 128) (p q : Fin 64) (hP : P.val = p.val) (hQ : Q.val = q.val + 64) :
    gramm v0 v3 (ix2 P Q) = ∑ s : Fin 8192, v0 (ix3 (0 : Fin 1) s p) * v3 (ix3 (0 : Fin 1) s q) :=
  (Gram.gram_apply _ P Q).trans (Finset.sum_congr rfl fun s _ => by
    rw [cat_left v0 v3 s P p hP, cat_right v0 v3 s Q q hQ])

/-- The left half of what is stored: the two diagonal corners added and scaled. -/
def reBlock : FVec Ideal S64x64 .f32 :=
  mulf (addf (extractStridedSlice S64x64 ![0, 0] (gramm v0 v3) slices_S128x128_o0_0_S64x64)
      (extractStridedSlice S64x64 ![64, 64] (gramm v0 v3) slices_S128x128_o64_64_S64x64))
    (broadcast S64x64 (Scalar.ofBits (F := Ideal) .f32 0x39000000#32))

/-- The right half of what is stored: the off-diagonal corner less its transpose, scaled. -/
def imBlock : FVec Ideal S64x64 .f32 :=
  mulf (subf (extractStridedSlice S64x64 ![0, 64] (gramm v0 v3) slices_S128x128_o0_64_S64x64)
      (transpose S64x64 [1, 0] (extractStridedSlice S64x64 ![0, 64] (gramm v0 v3) slices_S128x128_o0_64_S64x64)
        transposes_S64x64_p1_0_S64x64))
    (broadcast S64x64 (Scalar.ofBits (F := Ideal) .f32 0x39000000#32))

/-- The body's stored value is the two halves side by side, with a leading unit axis. -/
theorem pay_eq : k0_pay1 (F := Ideal) v0 v3
    = shapeCast S1x64x128 (concatenate S64x128 1 [⟨S64x64, reBlock v0 v3⟩, ⟨S64x64, imBlock v0 v3⟩]
        concatenates_S64x64_S64x64_S64x128_d1) shapeCasts_S64x128_S1x64x128 := rfl

/-- The top-left corner of the Gram matrix at (p, q). -/
theorem corner_ll (p q : Fin 64) :
    extractStridedSlice S64x64 ![0, 0] (gramm v0 v3) slices_S128x128_o0_0_S64x64 (ix2 p q)
      = ∑ s : Fin 8192, v0 (ix3 (0 : Fin 1) s p) * v0 (ix3 (0 : Fin 1) s q) := by
  have hp : p.val < 128 := by have := p.isLt; omega
  have hq : q.val < 128 := by have := q.isLt; omega
  have e := extractStridedSlice_apply ![0, 0] (gramm v0 v3) slices_S128x128_o0_0_S64x64 (ix2 p q)
    (ix2 (⟨p.val, hp⟩ : Fin 128) (⟨q.val, hq⟩ : Fin 128)) (fun a => by
      match a with
      | ⟨0, _⟩ => show p.val = 0 + p.val; omega
      | ⟨1, _⟩ => show q.val = 0 + q.val; omega)
  exact e.trans (gramm_ll v0 v3 ⟨p.val, hp⟩ ⟨q.val, hq⟩ p q rfl rfl)

/-- The bottom-right corner of the Gram matrix at (p, q). -/
theorem corner_rr (p q : Fin 64) :
    extractStridedSlice S64x64 ![64, 64] (gramm v0 v3) slices_S128x128_o64_64_S64x64 (ix2 p q)
      = ∑ s : Fin 8192, v3 (ix3 (0 : Fin 1) s p) * v3 (ix3 (0 : Fin 1) s q) := by
  have hp : p.val + 64 < 128 := by have := p.isLt; omega
  have hq : q.val + 64 < 128 := by have := q.isLt; omega
  have e := extractStridedSlice_apply ![64, 64] (gramm v0 v3) slices_S128x128_o64_64_S64x64 (ix2 p q)
    (ix2 (⟨p.val + 64, hp⟩ : Fin 128) (⟨q.val + 64, hq⟩ : Fin 128)) (fun a => by
      match a with
      | ⟨0, _⟩ => show p.val + 64 = 64 + p.val; omega
      | ⟨1, _⟩ => show q.val + 64 = 64 + q.val; omega)
  exact e.trans (gramm_rr v0 v3 ⟨p.val + 64, hp⟩ ⟨q.val + 64, hq⟩ p q rfl rfl)

/-- The top-right corner of the Gram matrix at (p, q). -/
theorem corner_lr (p q : Fin 64) :
    extractStridedSlice S64x64 ![0, 64] (gramm v0 v3) slices_S128x128_o0_64_S64x64 (ix2 p q)
      = ∑ s : Fin 8192, v0 (ix3 (0 : Fin 1) s p) * v3 (ix3 (0 : Fin 1) s q) := by
  have hp : p.val < 128 := by have := p.isLt; omega
  have hq : q.val + 64 < 128 := by have := q.isLt; omega
  have e := extractStridedSlice_apply ![0, 64] (gramm v0 v3) slices_S128x128_o0_64_S64x64 (ix2 p q)
    (ix2 (⟨p.val, hp⟩ : Fin 128) (⟨q.val + 64, hq⟩ : Fin 128)) (fun a => by
      match a with
      | ⟨0, _⟩ => show p.val = 0 + p.val; omega
      | ⟨1, _⟩ => show q.val + 64 = 64 + q.val; omega)
  exact e.trans (gramm_lr v0 v3 ⟨p.val, hp⟩ ⟨q.val + 64, hq⟩ p q rfl rfl)

/-- The left half at (p, q). -/
theorem reBlock_apply (p q : Fin 64) :
    reBlock v0 v3 (ix2 p q)
      = ((∑ s : Fin 8192, v0 (ix3 (0 : Fin 1) s p) * v0 (ix3 (0 : Fin 1) s q))
          + ∑ s : Fin 8192, v3 (ix3 (0 : Fin 1) s p) * v3 (ix3 (0 : Fin 1) s q)) * scale := by
  unfold reBlock
  rw [mulf_apply, addf_apply, broadcast_apply, corner_ll, corner_rr]
  rfl

/-- The right half at (p, q). -/
theorem imBlock_apply (p q : Fin 64) :
    imBlock v0 v3 (ix2 p q)
      = ((∑ s : Fin 8192, v0 (ix3 (0 : Fin 1) s p) * v3 (ix3 (0 : Fin 1) s q))
          - ∑ s : Fin 8192, v0 (ix3 (0 : Fin 1) s q) * v3 (ix3 (0 : Fin 1) s p)) * scale := by
  have et : transpose S64x64 [1, 0] (extractStridedSlice S64x64 ![0, 64] (gramm v0 v3) slices_S128x128_o0_64_S64x64)
      transposes_S64x64_p1_0_S64x64 (ix2 p q)
      = extractStridedSlice S64x64 ![0, 64] (gramm v0 v3) slices_S128x128_o0_64_S64x64 (ix2 q p) :=
    transpose_apply [1, 0] _ transposes_S64x64_p1_0_S64x64 (ix2 p q) (ix2 q p) fun b => by
      match b with
      | ⟨0, _⟩ => rfl
      | ⟨1, _⟩ => rfl
  unfold imBlock
  rw [mulf_apply, subf_apply, broadcast_apply, et, corner_lr, corner_lr]
  rfl

/-- Entry (0, p, Q) of what is stored, for a column Q = q in the left half. -/
theorem pay_left (z : Fin 1) (p : Fin 64) (Q : Fin 128) (q : Fin 64) (hQ : Q.val = q.val) :
    k0_pay1 (F := Ideal) v0 v3 (ix3 z p Q)
      = ((∑ s : Fin 8192, v0 (ix3 (0 : Fin 1) s p) * v0 (ix3 (0 : Fin 1) s q))
          + ∑ s : Fin 8192, v3 (ix3 (0 : Fin 1) s p) * v3 (ix3 (0 : Fin 1) s q)) * scale := by
  have hz : z.val = 0 := by have := z.isLt; omega
  rw [pay_eq]
  refine (shapeCast_apply _ shapeCasts_S64x128_S1x64x128 (ix3 z p Q) (ix2 p Q) ?_).trans ?_
  · rw [Shape.rowMajor_val_three, Shape.rowMajor_val_two]
    show p.val * 128 + Q.val = (z.val * 64 + p.val) * 128 + Q.val
    rw [hz]; omega
  refine (concatenate_pair_apply_left (s₁ := S64x64) (s₂ := S64x64) (1 : Fin 2) _ _ _ (ix2 p Q) rfl (ix2 p q) ?_).trans
    (reBlock_apply v0 v3 p q)
  intro b
  match b with
  | ⟨0, _⟩ => rfl
  | ⟨1, _⟩ => exact hQ.symm

/-- Entry (0, p, Q) of what is stored, for a column Q = 64 + q in the right half. -/
theorem pay_right (z : Fin 1) (p : Fin 64) (Q : Fin 128) (q : Fin 64) (hQ : Q.val = q.val + 64) :
    k0_pay1 (F := Ideal) v0 v3 (ix3 z p Q)
      = ((∑ s : Fin 8192, v0 (ix3 (0 : Fin 1) s p) * v3 (ix3 (0 : Fin 1) s q))
          - ∑ s : Fin 8192, v0 (ix3 (0 : Fin 1) s q) * v3 (ix3 (0 : Fin 1) s p)) * scale := by
  have hz : z.val = 0 := by have := z.isLt; omega
  rw [pay_eq]
  refine (shapeCast_apply _ shapeCasts_S64x128_S1x64x128 (ix3 z p Q) (ix2 p Q) ?_).trans ?_
  · rw [Shape.rowMajor_val_three, Shape.rowMajor_val_two]
    show p.val * 128 + Q.val = (z.val * 64 + p.val) * 128 + Q.val
    rw [hz]; omega
  refine (concatenate_pair_apply_right (s₁ := S64x64) (s₂ := S64x64) (1 : Fin 2) _ _ _ (ix2 p Q) rfl rfl (ix2 p q) ?_ ?_).trans
    (imBlock_apply v0 v3 p q)
  · intro b hb
    match b with
    | ⟨0, _⟩ => rfl
    | ⟨1, _⟩ => exact absurd rfl hb
  · show q.val + 64 = Q.val
    omega

end Cert.Mixture.Payload

end
-- ==== Proof.BlockIsSpec.lean ====
/-
  What the body stores is a block of the packed mixture.

  Suppose the body's two loaded blocks are batch b of the real and of the imaginary array: entry (0, s, p) of each
  is entry (b, s, p) of its array.  Then entry (0, p, Q) of the stored block is entry (b, p, Q) of the packed
  mixture: the Gram sums over the sequence are the same sums, and the left and right halves of the stored block
  are the real and the imaginary part.
-/
import proofs.«176316_j34583076667832_2_alg».proof.Proof.Payload

noncomputable section

open scoped BigOperators

namespace Cert.Mixture.Payload

open Idealize.ShloMosaic Idealize.ShloMosaic.ValueIdx Cert.KernelIdeal Cert.KernelIdeal.Gen Cert.Mixture

/-- The stored block of batch b, entry by entry, is the packed mixture's block b. -/
theorem pay_is_packed (x y : SArg.Idx → EReal) (b : Fin 32) (v0 v3 : Vec Ideal S1x8192x64 .f32)
    (h0 : ∀ (s : Fin 8192) (p : Fin 64), v0 (ix3 (0 : Fin 1) s p) = x (ix3 b s p))
    (h3 : ∀ (s : Fin 8192) (p : Fin 64), v3 (ix3 (0 : Fin 1) s p) = y (ix3 b s p))
    (j : S1x64x128.Idx) (i : SPacked.Idx)
    (hi0 : (i 0).val = b.val) (hi1 : (i 1).val = (j 1).val) (hi2 : (i 2).val = (j 2).val) :
    k0_pay1 (F := Ideal) v0 v3 j = packed x y i := by
  obtain ⟨z, p, Q, rfl⟩ : ∃ (z : Fin 1) (p : Fin 64) (Q : Fin 128), j = ix3 z p Q := ⟨j 0, j 1, j 2, eq_ix3 j⟩
  have hQ : Q.val < 128 := Q.isLt
  have e0 : i 0 = b := Fin.ext hi0
  have e1 : i 1 = p := Fin.ext hi1
  by_cases hlt : Q.val < 64
  · have hi : (i 2).val < 64 := by rw [hi2]; exact hlt
    rw [pay_left v0 v3 z p Q ⟨Q.val, hlt⟩ rfl]
    unfold packed
    rw [dif_pos hi]
    unfold outRe gram
    simp only [h0, h3]
    have e2 : (⟨(i 2).val, hi⟩ : Fin 64) = ⟨Q.val, hlt⟩ := Fin.ext hi2
    show _ = (∑ s : Fin 8192, x (ix3 (i 0) s (i 1)) * x (ix3 (i 0) s ⟨(i 2).val, hi⟩)
      + ∑ s : Fin 8192, y (ix3 (i 0) s (i 1)) * y (ix3 (i 0) s ⟨(i 2).val, hi⟩)) * scale
    rw [e0, e1, e2]
  · have hi : ¬ (i 2).val < 64 := by rw [hi2]; exact hlt
    have hq : Q.val - 64 < 64 := by omega
    rw [pay_right v0 v3 z p Q ⟨Q.val - 64, hq⟩ (by show Q.val = Q.val - 64 + 64; omega)]
    unfold packed
    rw [dif_neg hi]
    unfold outIm gram
    simp only [h0, h3]
    have e2 : (⟨(i 2).val - 64, by have h2 : (i 2).val < 128 := (i 2).isLt; omega⟩ : Fin 64) = ⟨Q.val - 64, hq⟩ :=
      Fin.ext (by show (i 2).val - 64 = Q.val - 64; rw [hi2])
    show _ = ((∑ s : Fin 8192, x (ix3 (i 0) s (i 1)) * y (ix3 (i 0) s ⟨(i 2).val - 64, _⟩))
      - ∑ s : Fin 8192, x (ix3 (i 0) s ⟨(i 2).val - 64, _⟩) * y (ix3 (i 0) s (i 1))) * scale
    rw [e0, e1, e2]

end Cert.Mixture.Payload

end
-- ==== Proof.Blocks.lean ====
/-
  From the blocks to the packed array.

  The grid has one point per batch.  At point t each input window's block is batch t of its array (rows and
  columns whole), and the output window's block is batch t of the packed array.  So what point t writes back is
  block t of the packed mixture of the two argument arrays; the 32 blocks cover the packed array; hence after the
  region the packed array IS the packed mixture.
-/
import proofs.«176316_j34583076667832_2_alg».proof.Proof.Gen.KernelIdeal.Frame
import proofs.«176316_j34583076667832_2_alg».proof.Proof.BlockIsSpec
import Idealize.ShloMosaic.Lib.Pipeline.Value

noncomputable section

namespace Cert.Mixture.Blocks

open Cert.KernelIdeal Cert.KernelIdeal.Gen Idealize.ShloMosaic Idealize.ShloMosaic.TcCoe Idealize.SL.Sem
open Idealize.ShloMosaic.ValueIdx Cert.Mixture
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps, decided over the 32 grid points: every window's block at point t is block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- A grid point as a batch number. -/
def bat (t : Fin cfg0.N) : Fin 32 := ⟨t.val, lt_of_lt_of_eq t.isLt N_0⟩

/-- The first input block at point t is batch t of the real array. -/
theorem iblk0_apply (c : Dev nD) (t : Fin cfg0.N) (s : Fin 8192) (p : Fin 64) :
    (iblk m c 0 t : Vec Ideal S1x8192x64 .f32) (ix3 (0 : Fin 1) s p)
      = (m ((c : Thread nD τ).loc main_arg0) : SArg.Idx → EReal) (ix3 (bat t) s p) := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * 0 = t.val; rw [e0]; omega
  | ⟨1, _⟩ => show win0_0.index t (1 : Fin 3) * 8192 + 1 * s.val = s.val; rw [e1]; omega
  | ⟨2, _⟩ => show win0_0.index t (2 : Fin 3) * 64 + 1 * p.val = p.val; rw [e2]; omega

/-- The second input block at point t is batch t of the imaginary array. -/
theorem iblk1_apply (c : Dev nD) (t : Fin cfg0.N) (s : Fin 8192) (p : Fin 64) :
    (iblk m c 1 t : Vec Ideal S1x8192x64 .f32) (ix3 (0 : Fin 1) s p)
      = (m ((c : Thread nD τ).loc main_arg1) : SArg.Idx → EReal) (ix3 (bat t) s p) := by
  obtain ⟨-, -, -, e0, e1, e2, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 1 + 1 * 0 = t.val; rw [e0]; omega
  | ⟨1, _⟩ => show win0_1.index t (1 : Fin 3) * 8192 + 1 * s.val = s.val; rw [e1]; omega
  | ⟨2, _⟩ => show win0_1.index t (2 : Fin 3) * 64 + 1 * p.val = p.val; rw [e2]; omega

/-- The packed mixture of the two argument arrays as the region finds them. -/
abbrev result (c : Dev nD) : SPacked.Idx → EReal :=
  packed (m ((c : Thread nD τ).loc main_arg0)) (m ((c : Thread nD τ).loc main_arg1))

/-- What point t writes back is block t of the packed mixture. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold out0_2
  rw [View.canon_unit_zero hz3]
  simp only [View.ld_unit_zero (S := S1x8192x64) hz3]
  obtain ⟨-, -, -, -, -, -, e0, e1, e2⟩ := idx_facts t
  funext j
  refine Payload.pay_is_packed (m ((c : Thread nD τ).loc main_arg0)) (m ((c : Thread nD τ).loc main_arg1)) (bat t)
    (iblk m c 0 t) (iblk m c 1 t) (iblk0_apply m c t) (iblk1_apply m c t) j (((cfg0.win 2).blk t).view.emb j) ?_ ?_ ?_
  · show win0_2.index t (0 : Fin 3) * 1 + 1 * (j 0).val = t.val
    have hj : (j 0).val < 1 := (j 0).isLt
    rw [e0]; omega
  · show win0_2.index t (1 : Fin 3) * 64 + 1 * (j 1).val = (j 1).val
    rw [e1]; omega
  · show win0_2.index t (2 : Fin 3) * 128 + 1 * (j 2).val = (j 2).val
    rw [e2]; omega

/-- An index of the packed array is in point t's block iff each coordinate is in the block's range on its axis. -/
theorem mem_blk (t : Fin cfg0.N) (i : S32x64x128.Idx) :
    i ∈ ((cfg0.win 2).blk t).view.set ↔ ∀ a : Fin 3, win0_2.index t a * S1x64x128.size a ≤ (i a).val ∧ (i a).val < win0_2.index t a * S1x64x128.size a + S1x64x128.size a := by
  show i ∈ ((View.whole main_v0).slice (win0_2.rect t)).set ↔ _
  rw [View.set_slice_whole, Rect.mem_set_unit]
  exact Iff.rfl

/-- Every index of the packed array lies in the block of the point numbered by its batch coordinate. -/
theorem cover (i : S32x64x128.Idx) :
    ∃ t : Fin cfg0.N, (cfg0.win 2).flush t = true ∧ i ∈ ((cfg0.win 2).blk t).view.set := by
  have h0 : (i 0).val < 32 := (i 0).isLt
  have h1 : (i 1).val < 64 := (i 1).isLt
  have h2 : (i 2).val < 128 := (i 2).isLt
  have hN : (i 0).val < cfg0.N := lt_of_lt_of_eq h0 N_0.symm
  obtain ⟨-, -, -, -, -, -, e0', e1, e2⟩ := idx_facts ⟨(i 0).val, hN⟩
  have e0 : win0_2.index ⟨(i 0).val, hN⟩ (0 : Fin 3) = (i 0).val := e0'
  refine ⟨⟨(i 0).val, hN⟩, flush0_2 _, ?_⟩
  rw [mem_blk]
  intro a
  match a with
  | ⟨0, _⟩ =>
    show win0_2.index ⟨(i 0).val, hN⟩ (0 : Fin 3) * 1 ≤ (i 0).val ∧ (i 0).val < win0_2.index ⟨(i 0).val, hN⟩ (0 : Fin 3) * 1 + 1
    rw [e0]; omega
  | ⟨1, _⟩ =>
    show win0_2.index ⟨(i 0).val, hN⟩ (1 : Fin 3) * 64 ≤ (i 1).val ∧ (i 1).val < win0_2.index ⟨(i 0).val, hN⟩ (1 : Fin 3) * 64 + 64
    rw [e1]; omega
  | ⟨2, _⟩ =>
    show win0_2.index ⟨(i 0).val, hN⟩ (2 : Fin 3) * 128 ≤ (i 2).val ∧ (i 2).val < win0_2.index ⟨(i 0).val, hN⟩ (2 : Fin 3) * 128 + 128
    rw [e2]; omega

/-- After the region the packed array is the packed mixture of the argument arrays. -/
theorem final (c : Dev nD) : (dats m 0 c).arrAt 2 cfg0.N = result m c :=
  (dats m 0 c).arrAt_eq_of_cover 2 (result m c) (fun t _ => flushed_eq m c t) cover

end Cert.Mixture.Blocks

end
-- ==== Proof.KernelRun.lean ====
/-
  The kernel's run: its two results are the two parts of the mixture.

  After the region the packed array holds the packed mixture of the argument arrays.  The two lines that follow cut
  it along the last axis: columns 0..63 into the first result, columns 64..127 into the second.  Those are the
  real and the imaginary part.
-/
import proofs.«176316_j34583076667832_2_alg».proof.Proof.Blocks
import Idealize.ShloMosaic.Lib.StableHlo.Run

noncomputable section

namespace Cert.Mixture.Run

open Cert.KernelIdeal Cert.KernelIdeal.Gen Idealize.ShloMosaic Idealize.ShloMosaic.TcCoe Idealize.SL.Sem
open Idealize.ShloMosaic.StableHlo Idealize.ShloMosaic.ValueIdx Cert.Mixture

variable (m : (ℓ : Loc nD τ sig) → Buf (Elt Ideal) ℓ) (ρ : Dev nD → PrngReg)

/-- The real part as a function of the argument arrays at launch. -/
abbrev re (c : Dev nD) : SOut.Idx → EReal :=
  outRe (m ((c : Thread nD τ).loc main_arg0)) (m ((c : Thread nD τ).loc main_arg1))

/-- The imaginary part as a function of the argument arrays at launch. -/
abbrev im (c : Dev nD) : SOut.Idx → EReal :=
  outIm (m ((c : Thread nD τ).loc main_arg0)) (m ((c : Thread nD τ).loc main_arg1))

/-- Where the lines after the region start, the packed array holds the packed mixture. -/
theorem packed_at (c : Dev nD) :
    Pipeline.withArrays (cfgs 0).spec c (V0 m c) (fun w => (dats m 0 c).arrAt w (cfgs 0).N) (Proc.devRef .tc main_v0)
      = Blocks.result m c :=
  (Pipeline.withArrays_arr spec0 launch0.win.arr_inj c _ _ 2).trans (Blocks.final m c)

/-- Columns 0..63 of the packed mixture are the real part. -/
theorem slice_re (c : Dev nD) :
    extractStridedSlice S32x64x64 ![0, 0, 0] (Blocks.result m c) slices_S32x64x128_S32x64x64_0_0_0 = re m c := by
  funext i
  have h2 : (i 2).val < 128 := by have h : (i 2).val < 64 := (i 2).isLt; omega
  have e := extractStridedSlice_apply ![0, 0, 0] (Blocks.result m c) slices_S32x64x128_S32x64x64_0_0_0 i
    (ix3 (i 0) (i 1) (⟨(i 2).val, h2⟩ : Fin 128)) (fun a => by
      match a with
      | ⟨0, _⟩ => show (i 0).val = 0 + (i 0).val; omega
      | ⟨1, _⟩ => show (i 1).val = 0 + (i 1).val; omega
      | ⟨2, _⟩ => show (i 2).val = 0 + (i 2).val; omega)
  exact e.trans (packed_left _ _ i _ rfl rfl rfl)

/-- Columns 64..127 of the packed mixture are the imaginary part. -/
theorem slice_im (c : Dev nD) :
    extractStridedSlice S32x64x64 ![0, 0, 64] (Blocks.result m c) slices_S32x64x128_S32x64x64_0_0_64 = im m c := by
  funext i
  have h2 : 64 + (i 2).val < 128 := by have h : (i 2).val < 64 := (i 2).isLt; omega
  have e := extractStridedSlice_apply ![0, 0, 64] (Blocks.result m c) slices_S32x64x128_S32x64x64_0_0_64 i
    (ix3 (i 0) (i 1) (⟨64 + (i 2).val, h2⟩ : Fin 128)) (fun a => by
      match a with
      | ⟨0, _⟩ => show (i 0).val = 0 + (i 0).val; omega
      | ⟨1, _⟩ => show (i 1).val = 0 + (i 1).val; omega
      | ⟨2, _⟩ => show 64 + (i 2).val = 64 + (i 2).val; rfl)
  exact e.trans (packed_right _ _ i _ rfl rfl rfl)

/-- The first result after the two lines. -/
theorem tail_re (c : Dev nD) :
    Pipeline.afterTail₀ cfgs (dats m) 0 (V0 m) [hostOps1] c main_v1 = re m c := by
  unfold Pipeline.afterTail₀
  show StableHlo.after hostOps1 _ (Proc.devRef .tc main_v1) = _
  after_results
  rw [packed_at]
  exact slice_re m c

/-- The second result after the two lines. -/
theorem tail_im (c : Dev nD) :
    Pipeline.afterTail₀ cfgs (dats m) 0 (V0 m) [hostOps1] c main_v2 = im m c := by
  unfold Pipeline.afterTail₀
  show StableHlo.after hostOps1 _ (Proc.devRef .tc main_v2) = _
  after_results
  rw [packed_at]
  exact slice_im m c

/-- Every weakly fair execution of the kernel's program terminates with its two results at the real and the
    imaginary part of the mixture of its arguments, and the arguments unchanged. -/
theorem run : θ_run defs (onTc (τ := τ) (main (F := Ideal))) ⟨m, fun _ => 0, ρ⟩ fun r => ∀ c : Dev nD,
      r.2.mem ((c.tc : Thread nD τ).loc main_v1) = re m c
      ∧ r.2.mem ((c.tc : Thread nD τ).loc main_v2) = im m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 rfl (by decide))).trans (tail_re m c),
     ((h c).2 main_v2 (Pipeline.mem_restRefs_of main_v2 rfl (by decide))).trans (tail_im m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.Mixture.Run

end
-- ==== Proof.lean ====
/-
  The complex mixture kernel against its reference, over the extended reals.

  Both programs take a batch of 32 sequences of 8192 complex vectors of dimension 64, as a real array x and an
  imaginary array y of shape [32, 8192, 64], and return the average over each sequence of the outer products
  v v^H as a real part and an imaginary part, each [32, 64, 64]:
      re[b, p, q] = (sum_s x[b,s,p] x[b,s,q] + sum_s y[b,s,p] y[b,s,q]) * 2^-13
      im[b, p, q] = (sum_s x[b,s,p] y[b,s,q] - sum_s x[b,s,q] y[b,s,p]) * 2^-13.
  The reference forms the three Gram sums by three batched contractions.  The kernel, batch by batch, sets the real
  and the imaginary block side by side as one [8192, 128] operand X, forms the single Gram matrix X^T X, reads the
  three sums off its corners, and stores the two parts side by side in one [64, 128] block; two slices after the
  region separate them again.  At the ideal values the narrowing of X to bf16 is the identity and a matrix product
  is its plain sum, so both programs compute the same sums term for term: no law of arithmetic beyond reading
  the operations at an index is needed, and the precondition (finite inputs) is never opened.

  The modules: Spec (the mixture as a function of the arguments), RefIsSpec (the reference's results are it),
  GramRead, Operand, Payload, BlockIsSpec (what the kernel body stores, entry by entry), Blocks (the packed array
  after the region), KernelRun (the kernel's run and the two slices).  Here the five claims are assembled.
-/
import proofs.«176316_j34583076667832_2_alg».proof.Defs
import proofs.«176316_j34583076667832_2_alg».proof.Proof.Gen.Kernel
import proofs.«176316_j34583076667832_2_alg».proof.Proof.Gen.Kernel.Frame
import proofs.«176316_j34583076667832_2_alg».proof.Proof.Gen.KernelIdeal
import proofs.«176316_j34583076667832_2_alg».proof.Proof.Gen.KernelIdeal.Frame
import proofs.«176316_j34583076667832_2_alg».proof.Proof.Gen.ReferenceIdeal
import proofs.«176316_j34583076667832_2_alg».proof.Proof.Gen.ReferenceIdeal.Run
import proofs.«176316_j34583076667832_2_alg».proof.Proof.Gen.ReferenceIdeal.Read
import proofs.«176316_j34583076667832_2_alg».proof.Proof.Gen.Pre_finite_inputs
import proofs.«176316_j34583076667832_2_alg».proof.Proof.RefIsSpec
import proofs.«176316_j34583076667832_2_alg».proof.Proof.KernelRun

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read at the ideal values. -/
theorem frame_ideal : Cert.frame_KernelIdeal := fun m ρ _ => Cert.KernelIdeal.Gen.frame m ρ

/-- So does the reference: its run with the statement about the results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- No operation of the kernel was rewritten for the ideal reading. -/
theorem preserves : Cert.preserves_Kernel_KernelIdeal := trivial

/-- From memories that agree on the two arguments, the kernel's two results and the reference's two results are the
    real and the imaginary part of the mixture of those arguments. -/
theorem algebraic : Cert.algebraic_KernelIdeal_ReferenceIdeal := by
  intro m ρ m' ρ' _ hagree
  refine ⟨fun c => Cert.Mixture.Run.re m c, fun c => Cert.Mixture.Run.im m c, Cert.Mixture.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.Mixture.Ref.re_eq, (hagree c).1, (hagree c).2]
  · rw [Cert.ReferenceIdeal.Read.val_main_v9_eq, Cert.Mixture.Ref.im_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
